-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256 .f32) (main_arg7 : FVec F S256x128 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x256 .f32) (main_arg4 : FVec F S256 .f32) (main_arg5 : FVec F S256x256 .f32) (main_arg6 : FVec F S256 .f32) (main_arg7 : FVec F S256x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩
abbrev S2000x256 : Shape := ⟨2, ![2000, 256]⟩
abbrev S1x256 : Shape := ⟨2, ![1, 256]⟩
abbrev S1x128 : Shape := ⟨2, ![1, 128]⟩
abbrev S512x128 : Shape := ⟨2, ![512, 128]⟩
abbrev S100000x1 : Shape := ⟨2, ![100000, 1]⟩

abbrev nBuf : Space → Nat
  | .hbm => 31
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S512x128, .f32⟩
  | .hbm, ⟨29, _⟩ => ⟨S100000x1, .i32⟩
  | .hbm, ⟨30, _⟩ => ⟨S512x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S512x128 : S_.BroadcastsInDim S512x128 (![] : Fin 0 → Fin S512x128.rank)
  bcast_S100000_S100000x1_0 : S100000.BroadcastsInDim S100000x1 (![0] : Fin 1 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  scatter_S512x128_S100000x1_S100000x128_1_0_0_1_wf : ScatterDims.WF S512x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩
abbrev S1x256 : Shape := ⟨2, ![1, 256]⟩
abbrev S1x128 : Shape := ⟨2, ![1, 128]⟩
abbrev S512x128 : Shape := ⟨2, ![512, 128]⟩
abbrev S100000x1 : Shape := ⟨2, ![100000, 1]⟩

abbrev nBuf : Space → Nat
  | .hbm => 52
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x256, .f32⟩
  | .hbm, ⟨31, _⟩ => ⟨S1x256, .f32⟩
  | .hbm, ⟨32, _⟩ => ⟨S100000x256, .f32⟩
  | .hbm, ⟨33, _⟩ => ⟨S100000x256, .f32⟩
  | .hbm, ⟨34, _⟩ => ⟨S_, .f32⟩
  | .hbm, ⟨35, _⟩ => ⟨S100000x256, .f32⟩
  | .hbm, ⟨36, _⟩ => ⟨S100000x256, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S_, .f32⟩
  | .hbm, ⟨42, _⟩ => ⟨S100000x256, .f32⟩
  | .hbm, ⟨43, _⟩ => ⟨S100000x256, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S512x128, .f32⟩
  | .hbm, ⟨50, _⟩ => ⟨S100000x1, .i32⟩
  | .hbm, ⟨51, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call1_cst : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  scatter_S512x128_S100000x1_S100000x128_1_0_0_1_wf : ScatterDims.WF S512x128 S100000x1 S100000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.Spec.lean ====
/-
  The mathematics of the claim, free of either program.

  A graph-isomorphism layer's node update is a three-layer perceptron applied to every node row separately:
  with h = x + agg (a node's features plus the sum of its in-neighbours' features), the result at node p, column j is

      out(p, j) = Σ_k h2(p, k) · Wo(k, j) + bo(j),
      h2(p, j)  = max(Σ_k h1(p, k) · W2(k, j) + b2(j), 0),
      h1(p, j)  = max(Σ_k h(p, k) · W1(k, j) + b1(j), 0),

  all sums and products on the extended reals. The number of rows A is a parameter: the same function describes the
  whole node array and a block of its rows. The one structural fact used later is that row p of the result depends
  only on row p of x and of agg (`mlp_congr_row`), so a block of rows of the result is the function of the same block
  of rows of the inputs.
-/
import Idealize.ShloMosaic.PureOps.Ideal
import Idealize.ShloMosaic.Lib.ValueIdx

noncomputable section

open scoped BigOperators

open Idealize.ShloMosaic Idealize.ShloMosaic.ValueIdx

namespace Cert.Gin

/-- One affine layer: row p of `h` contracted against column j of `W`, plus the bias at column j. -/
def dense {A K N : ℕ} (h : (⟨2, ![A, K]⟩ : Shape).Idx → EReal) (W : (⟨2, ![K, N]⟩ : Shape).Idx → EReal)
    (b : (⟨1, ![N]⟩ : Shape).Idx → EReal) : (⟨2, ![A, N]⟩ : Shape).Idx → EReal :=
  fun i => (∑ k : Fin K, h (ix2 (i 0) k) * W (ix2 k (i 1))) + b (ix1 (i 1))

/-- The rectifier, elementwise: the larger of the entry and zero (zero kept as the f32 word both programs print). -/
def relu {s : Shape} (h : s.Idx → EReal) : s.Idx → EReal :=
  fun i => max (h i) (Ideal.ofBits .f32 0x00000000#32)

/-- The sum of a node's own features and its aggregated neighbour features. -/
def combine {s : Shape} (x agg : s.Idx → EReal) : s.Idx → EReal := fun i => x i + agg i

/-- The node update on an array of `A` node rows. -/
def mlp {A : ℕ} (x agg : (⟨2, ![A, 128]⟩ : Shape).Idx → EReal)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wo : (⟨2, ![256, 128]⟩ : Shape).Idx → EReal) (bo : (⟨1, ![128]⟩ : Shape).Idx → EReal) :
    (⟨2, ![A, 128]⟩ : Shape).Idx → EReal :=
  dense (relu (dense (relu (dense (combine x agg) W1 b1)) W2 b2)) Wo bo

/-- An affine layer's row p is a function of its operand's row p alone. -/
theorem dense_congr_row {A A' K N : ℕ} (h : (⟨2, ![A, K]⟩ : Shape).Idx → EReal) (h' : (⟨2, ![A', K]⟩ : Shape).Idx → EReal)
    (W : (⟨2, ![K, N]⟩ : Shape).Idx → EReal) (b : (⟨1, ![N]⟩ : Shape).Idx → EReal) (p : Fin A) (p' : Fin A') (j : Fin N)
    (e : ∀ k : Fin K, h (ix2 p k) = h' (ix2 p' k)) : dense h W b (ix2 p j) = dense h' W b (ix2 p' j) := by
  show (∑ k : Fin K, h (ix2 p k) * W (ix2 k j)) + b (ix1 j) = (∑ k : Fin K, h' (ix2 p' k) * W (ix2 k j)) + b (ix1 j)
  rw [Finset.sum_congr rfl fun k _ => by rw [e k]]

/-- Row p of the node update is a function of row p of the node features and of the aggregated features alone. -/
theorem mlp_congr_row {A A' : ℕ} (x agg : (⟨2, ![A, 128]⟩ : Shape).Idx → EReal) (x' agg' : (⟨2, ![A', 128]⟩ : Shape).Idx → EReal)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wo : (⟨2, ![256, 128]⟩ : Shape).Idx → EReal) (bo : (⟨1, ![128]⟩ : Shape).Idx → EReal)
    (p : Fin A) (p' : Fin A') (j : Fin 128)
    (ex : ∀ k : Fin 128, x (ix2 p k) = x' (ix2 p' k)) (ea : ∀ k : Fin 128, agg (ix2 p k) = agg' (ix2 p' k)) :
    mlp x agg W1 b1 W2 b2 Wo bo (ix2 p j) = mlp x' agg' W1 b1 W2 b2 Wo bo (ix2 p' j) := by
  unfold mlp
  refine dense_congr_row _ _ Wo bo p p' j fun k2 => ?_
  show max (dense (relu (dense (combine x agg) W1 b1)) W2 b2 (ix2 p k2)) _
      = max (dense (relu (dense (combine x' agg') W1 b1)) W2 b2 (ix2 p' k2)) _
  rw [dense_congr_row _ _ W2 b2 p p' k2 fun k1 => ?_]
  show max (dense (combine x agg) W1 b1 (ix2 p k1)) _ = max (dense (combine x' agg') W1 b1 (ix2 p' k1)) _
  rw [dense_congr_row _ _ W1 b1 p p' k1 fun k => ?_]
  show x (ix2 p k) + agg (ix2 p k) = x' (ix2 p' k) + agg' (ix2 p' k)
  rw [ex k, ea k]

/-- The same, with the weights and biases also replaced by equal ones. -/
theorem mlp_congr {A A' : ℕ} (x agg : (⟨2, ![A, 128]⟩ : Shape).Idx → EReal) (x' agg' : (⟨2, ![A', 128]⟩ : Shape).Idx → EReal)
    (W1 W1' : (⟨2, ![128, 256]⟩ : Shape).Idx → EReal) (b1 b1' : (⟨1, ![256]⟩ : Shape).Idx → EReal)
    (W2 W2' : (⟨2, ![256, 256]⟩ : Shape).Idx → EReal) (b2 b2' : (⟨1, ![256]⟩ : Shape).Idx → EReal)
    (Wo Wo' : (⟨2, ![256, 128]⟩ : Shape).Idx → EReal) (bo bo' : (⟨1, ![128]⟩ : Shape).Idx → EReal)
    (p : Fin A) (p' : Fin A') (j : Fin 128)
    (ex : ∀ k : Fin 128, x (ix2 p k) = x' (ix2 p' k)) (ea : ∀ k : Fin 128, agg (ix2 p k) = agg' (ix2 p' k))
    (e1 : W1 = W1') (f1 : b1 = b1') (e2 : W2 = W2') (f2 : b2 = b2') (e3 : Wo = Wo') (f3 : bo = bo') :
    mlp x agg W1 b1 W2 b2 Wo bo (ix2 p j) = mlp x' agg' W1' b1' W2' b2' Wo' bo' (ix2 p' j) := by
  subst e1 f1 e2 f2 e3 f3
  exact mlp_congr_row x agg x' agg' W1 b1 W2 b2 Wo bo p p' j ex ea

end Cert.Gin

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.Dense.lean ====
/-
  The two programs' spellings of the node update's pieces, as whole arrays on the extended reals, for any number of rows.

  * The affine layer. The kernel rounds both operands to bf16 (the identity on the extended reals), multiplies them on the
    matrix unit into a zero accumulator, and adds the bias vector viewed as one row and repeated down the rows; the host
    contracts the operands directly and adds the bias made a row and repeated by two broadcasts. At (p, j) both are
    Σ_k h(p, k) · W(k, j) + b(j): `Cert.Gin.dense`.
  * The rectifier. The kernel takes the maximum with a splat of the zero word, the host with a rank-0 zero broadcast to the
    array's shape: `Cert.Gin.relu`.
  * The combination of a node's features with the aggregated ones. The kernel adds the two blocks; the host first
    multiplies the features by a broadcast 1.0 = 1 + 0, and 1 · x = x for every extended real: `Cert.Gin.combine`.
-/
import Idealize.ShloMosaic.Lib.ValueLayout
import Idealize.ShloMosaic.Lib.IdealHost
import proofs.«160045_j11304353923870_1_alg».proof.Proof.Spec
import proofs.«160045_j11304353923870_1_alg».proof.Proof.LibPlainMatmul
import proofs.«160045_j11304353923870_1_alg».proof.Proof.LibPlainDot
import proofs.«160045_j11304353923870_1_alg».proof.Proof.LibBroadcastReads

noncomputable section

open scoped BigOperators

open Idealize.ShloMosaic Idealize.ShloMosaic.ValueIdx

namespace Cert.Gin

/-! ## The affine layer -/

/-- The kernel's affine layer: bf16-rounded operands multiplied into a zero accumulator, plus the bias as a repeated row. -/
theorem kernel_dense {A K N : ℕ} (d : DotDims ⟨2, ![A, K]⟩ ⟨2, ![K, N]⟩ ⟨2, ![A, N]⟩) (hd : d = DotDims.plain A K N)
    (h : FVec Ideal ⟨2, ![A, K]⟩ .f32) (W : FVec Ideal ⟨2, ![K, N]⟩ .f32) (b : FVec Ideal ⟨1, ![N]⟩ .f32)
    (ht : FTy.bf16.bits < FTy.f32.bits)
    (hc : (⟨1, ![N]⟩ : Shape).ShapeCasts ⟨2, ![1, N]⟩) (hb : (⟨2, ![1, N]⟩ : Shape).Broadcasts ⟨2, ![A, N]⟩) :
    addf (matmul d none (truncf .bf16 h ht) (truncf .bf16 W ht) (constant (F := Ideal) ⟨2, ![A, N]⟩ .f32 0x00000000#32))
        (broadcastTo ⟨2, ![A, N]⟩ (shapeCast ⟨2, ![1, N]⟩ b hc) hb)
      = dense h W b := by
  subst hd
  funext i
  obtain ⟨p, j, rfl⟩ : ∃ (p : Fin A) (j : Fin N), i = ix2 p j := ⟨i 0, i 1, eq_ix2 i⟩
  show FloatOps.matmul (DotDims.plain A K N) none (truncf .bf16 h ht) (truncf .bf16 W ht)
        (constant (F := Ideal) ⟨2, ![A, N]⟩ .f32 0x00000000#32) (ix2 p j)
      + broadcastTo ⟨2, ![A, N]⟩ (shapeCast ⟨2, ![1, N]⟩ b hc) hb (ix2 p j)
    = (∑ k : Fin K, h (ix2 p k) * W (ix2 k j)) + b (ix1 j)
  rw [Cert.Lib.PlainMatmul.plain_matmul_zero_apply, broadcastTo_1b_ab_apply, shapeCast_a_1a_apply]
  rfl

/-- The host's affine layer: the operands contracted, plus the bias made a row and repeated down the rows. -/
theorem host_dense {A K N : ℕ} (d : DotDims ⟨2, ![A, K]⟩ ⟨2, ![K, N]⟩ ⟨2, ![A, N]⟩) (hd : d = DotDims.plain A K N)
    (h : FVec Ideal ⟨2, ![A, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![A, N]⟩ ![0, 1]) :
    addf (Host.dotGeneral d none h W) (broadcastInDim ⟨2, ![A, N]⟩ ![0, 1] h2 (broadcastInDim ⟨2, ![1, N]⟩ ![1] h1 b))
      = dense h W b := by
  subst hd
  funext i
  obtain ⟨p, j, rfl⟩ : ∃ (p : Fin A) (j : Fin N), i = ix2 p j := ⟨i 0, i 1, eq_ix2 i⟩
  show FloatOps.dotGeneral (DotDims.plain A K N) none .single h W (ix2 p j)
      + broadcastInDim ⟨2, ![A, N]⟩ ![0, 1] h2 (broadcastInDim ⟨2, ![1, N]⟩ ![1] h1 b) (ix2 p j)
    = (∑ k : Fin K, h (ix2 p k) * W (ix2 k j)) + b (ix1 j)
  rw [Cert.Lib.PlainDot.plain_dotGeneral_apply, Cert.Lib.BroadcastReads.broadcastInDim_1b_ab_apply,
    Cert.Lib.BroadcastReads.broadcastInDim_b_1b_apply]

/-! ## The rectifier -/

/-- The kernel's rectifier: the maximum with a splat of the zero word. -/
theorem kernel_relu {s : Shape} (v : FVec Ideal s .f32) :
    maximumf v (broadcast s (Scalar.ofBits (F := Ideal) .f32 0x00000000#32)) = relu v := rfl

/-- The host's rectifier: the maximum with a rank-0 zero broadcast to the array's shape. -/
theorem host_relu {s : Shape} (v : FVec Ideal s .f32) (hb : (⟨0, ![]⟩ : Shape).BroadcastsInDim s ![]) :
    maximumf v (broadcastInDim s ![] hb (constant (F := Ideal) ⟨0, ![]⟩ .f32 0x00000000#32)) = relu v := by
  funext i
  show max (v i) (broadcastInDim s ![] hb (constant (F := Ideal) ⟨0, ![]⟩ .f32 0x00000000#32) i) = max (v i) _
  rw [broadcastInDim_scalar_apply]
  rfl

/-! ## A node's features plus its aggregated neighbours' -/

/-- The kernel adds the two blocks (the second through a cast to its own shape). -/
theorem kernel_combine {s : Shape} (x agg : FVec Ideal s .f32) (hc : s.ShapeCasts s) :
    addf x (shapeCast s agg hc) = combine x agg := by
  rw [shapeCast_self]
  rfl

/-- The host multiplies the features by a broadcast one first; one times any extended real is that extended real. -/
theorem host_combine {s : Shape} (x agg : FVec Ideal s .f32) (hb : (⟨0, ![]⟩ : Shape).BroadcastsInDim s ![]) :
    addf (mulf (broadcastInDim s ![] hb (constant (F := Ideal) ⟨0, ![]⟩ .f32 0x3F800000#32)) x) agg = combine x agg := by
  funext i
  show broadcastInDim s ![] hb (constant (F := Ideal) ⟨0, ![]⟩ .f32 0x3F800000#32) i * x i + agg i = x i + agg i
  rw [broadcastInDim_scalar_apply]
  show Ideal.ofBits .f32 0x3F800000#32 * x i + agg i = x i + agg i
  rw [Ideal.ofBits_one_f32, one_mul]

end Cert.Gin

end
-- ==== Proof.RegionValue.lean ====
/-
  What the idealized kernel's one region leaves in its output array.

  The region walks the 100000 node rows in 50 blocks of 2000. At point t it loads rows 2000 t … 2000 t + 1999 of the node
  features and of the aggregated neighbour features, and the whole of each weight matrix and bias vector; its one stored
  value is the three-layer node update of those two blocks (`pay_eq`). Since row p of the node update depends only on row p
  of the two inputs (`Cert.Gin.mlp_congr`), the block a point writes back is block t of the node update of the WHOLE
  arrays (`flushed_eq`); the 50 blocks tile the rows (`cover`), so the output array after the run is that whole-array
  function (`final`).
-/
import proofs.«160045_j11304353923870_1_alg».proof.Proof.Gen.KernelIdeal.Frame
import proofs.«160045_j11304353923870_1_alg».proof.Proof.Dense
import Idealize.ShloMosaic.Lib.Pipeline.Value
import Idealize.ShloMosaic.Lib.StableHlo.Run

set_option maxRecDepth 16384

noncomputable section

open scoped BigOperators

open Idealize.ShloMosaic Idealize.ShloMosaic.TcCoe Idealize.ShloMosaic.ValueIdx Idealize.SL.Sem
open Idealize.ShloMosaic.Pipeline (Dat Cfg Window)

namespace Cert.KernelIdeal.RegionValue

open Cert.KernelIdeal Cert.KernelIdeal.Gen

/-- The body's one stored value is the node update of the blocks it loads. -/
theorem pay_eq (x0 x1 : Vec Ideal S2000x128 .f32) (w1 : Vec Ideal S128x256 .f32) (c1 : Vec Ideal S256 .f32)
    (w2 : Vec Ideal S256x256 .f32) (c2 : Vec Ideal S256 .f32) (wo : Vec Ideal S256x128 .f32) (co : Vec Ideal S128 .f32) :
    k0_pay1 (F := Ideal) x0 x1 w1 c1 w2 c2 wo co = Cert.Gin.mlp x0 x1 w1 c1 w2 c2 wo co := by
  unfold k0_pay1 Cert.Gin.mlp
  dsimp only
  rw [Cert.Gin.kernel_combine, Cert.Gin.kernel_dense dot_S2000x128_S128x256_S2000x256_1_0_0_1_n_n rfl, Cert.Gin.kernel_relu,
    Cert.Gin.kernel_dense dot_S2000x256_S256x256_S2000x256_1_0_0_1_n_n rfl, Cert.Gin.kernel_relu,
    Cert.Gin.kernel_dense dot_S2000x256_S256x128_S2000x128_1_0_0_1_n_n rfl]

variable (m : (ℓ : Loc nD τ sig) → Buf (Elt Ideal) ℓ)

/-! ## The windows' blocks, by coordinates -/

theorem hz2 : (![0, 0] : Fin 2 → Nat) = fun _ => 0 := funext fun a => by fin_cases a <;> rfl
theorem hz1 : (![0] : Fin 1 → Nat) = fun _ => 0 := funext fun a => by fin_cases a <;> rfl

/-- At point t the two node arrays' windows and the output's window all sit at block row t, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- The weights' and biases' windows sit at block 0 at every point: each block is the whole array. -/
theorem idx_weights : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0 :=
  (by decide +kernel : ∀ t : Fin grid0.N, _)

theorem lt50 (t : Fin cfg0.N) : t.val < 50 := lt_of_lt_of_eq t.isLt (N_0 : cfg0.N = 50)

/-- Row r of block t is row 2000 t + r of the array. -/
def row (t : Fin cfg0.N) (r : Fin 2000) : Fin 100000 := ⟨t.val * 2000 + r.val, by have := lt50 t; have := r.isLt; omega⟩

/-- The output window's block at point t sends (r, j) to (2000 t + r, j). -/
theorem emb8 (t : Fin cfg0.N) (r : Fin 2000) (j : Fin 128) :
    ((cfg0.win 8).blk t).view.emb (ix2 r j) = ix2 (row t r) j := by
  obtain ⟨-, -, -, -, e0, e1⟩ := idx_rows t
  funext a; apply Fin.ext
  match a with
  | ⟨0, _⟩ => show win0_8.index t (0 : Fin 2) * 2000 + 1 * r.val = t.val * 2000 + r.val; omega
  | ⟨1, _⟩ => show win0_8.index t (1 : Fin 2) * 128 + 1 * j.val = j.val; omega

/-- The node-feature block at point t, at (r, k), is the array at (2000 t + r, k). -/
theorem read0 (c : Dev nD) (t : Fin cfg0.N) (r : Fin 2000) (k : Fin 128) :
    iblk m c 0 t (ix2 r k) = V m c main_arg0 (ix2 (row t r) k) := by
  obtain ⟨e0, e1, -⟩ := idx_rows t
  show V m c main_arg0 (((cfg0.win 0).blk t).view.emb (ix2 r k)) = _
  refine congrArg _ (funext fun a => Fin.ext ?_)
  match a with
  | ⟨0, _⟩ => show win0_0.index t (0 : Fin 2) * 2000 + 1 * r.val = t.val * 2000 + r.val; omega
  | ⟨1, _⟩ => show win0_0.index t (1 : Fin 2) * 128 + 1 * k.val = k.val; omega

/-- The aggregated-feature window's block at point t, read off ANY contents `f` of its array: at (r, k) it is `f` at
    (2000 t + r, k). -/
theorem rows1 (f : S100000x128.Idx → EReal) (t : Fin cfg0.N) (r : Fin 2000) (k : Fin 128) :
    ((cfg0.win 1).blk t).view.read (Elt Ideal) f (ix2 r k) = f (ix2 (row t r) k) := by
  obtain ⟨-, -, e0, e1, -⟩ := idx_rows t
  show f (((cfg0.win 1).blk t).view.emb (ix2 r k)) = _
  refine congrArg _ (funext fun a => Fin.ext ?_)
  match a with
  | ⟨0, _⟩ => show win0_1.index t (0 : Fin 2) * 2000 + 1 * r.val = t.val * 2000 + r.val; omega
  | ⟨1, _⟩ => show win0_1.index t (1 : Fin 2) * 128 + 1 * k.val = k.val; omega

/-- The aggregated features as the region finds them: the array its second window stages. -/
abbrev aggV (c : Dev nD) : S100000x128.Idx → EReal := V m c (Pipeline.arrRef spec0 1)

theorem read1 (c : Dev nD) (t : Fin cfg0.N) (r : Fin 2000) (k : Fin 128) :
    iblk m c 1 t (ix2 r k) = aggV m c (ix2 (row t r) k) := by
  unfold iblk
  exact rows1 (aggV m c) t r k

/-- Each weight matrix's and bias vector's block is the whole array, at every point. -/
theorem whole2 (c : Dev nD) (t : Fin cfg0.N) : (iblk m c 2 t : S128x256.Idx → EReal) = V m c main_arg3 := by
  obtain ⟨e0, e1, -⟩ := idx_weights t
  funext y
  show V m c main_arg3 (((cfg0.win 2).blk t).view.emb y) = V m c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega
theorem whole3 (c : Dev nD) (t : Fin cfg0.N) : (iblk m c 3 t : S256.Idx → EReal) = V m c main_arg4 := by
  obtain ⟨-, -, e0, -⟩ := idx_weights t
  funext y
  show V m c main_arg4 (((cfg0.win 3).blk t).view.emb y) = V m c main_arg4 y
  refine congrArg _ (funext fun a => Fin.ext ?_)
  match a with
  | ⟨0, _⟩ => show win0_3.index t (0 : Fin 1) * 256 + 1 * (y 0).val = (y 0).val; omega
theorem whole4 (c : Dev nD) (t : Fin cfg0.N) : (iblk m c 4 t : S256x256.Idx → EReal) = V m c main_arg5 := by
  obtain ⟨-, -, -, e0, e1, -⟩ := idx_weights t
  funext y
  show V m c main_arg5 (((cfg0.win 4).blk t).view.emb y) = V m c main_arg5 y
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega
theorem whole5 (c : Dev nD) (t : Fin cfg0.N) : (iblk m c 5 t : S256.Idx → EReal) = V m c main_arg6 := by
  obtain ⟨-, -, -, -, -, e0, -⟩ := idx_weights t
  funext y
  show V m c main_arg6 (((cfg0.win 5).blk t).view.emb y) = V m c main_arg6 y
  refine congrArg _ (funext fun a => Fin.ext ?_)
  match a with
  | ⟨0, _⟩ => show win0_5.index t (0 : Fin 1) * 256 + 1 * (y 0).val = (y 0).val; omega
theorem whole6 (c : Dev nD) (t : Fin cfg0.N) : (iblk m c 6 t : S256x128.Idx → EReal) = V m c main_arg7 := by
  obtain ⟨-, -, -, -, -, -, e0, e1, -⟩ := idx_weights t
  funext y
  show V m c main_arg7 (((cfg0.win 6).blk t).view.emb y) = V m c main_arg7 y
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 128 + 1 * (y 1).val = (y 1).val; omega
theorem whole7 (c : Dev nD) (t : Fin cfg0.N) : (iblk m c 7 t : S128.Idx → EReal) = V m c main_arg8 := by
  obtain ⟨-, -, -, -, -, -, -, -, e0⟩ := idx_weights t
  funext y
  show V m c main_arg8 (((cfg0.win 7).blk t).view.emb y) = V m c main_arg8 y
  refine congrArg _ (funext fun a => Fin.ext ?_)
  match a with
  | ⟨0, _⟩ => show win0_7.index t (0 : Fin 1) * 128 + 1 * (y 0).val = (y 0).val; omega

/-! ## What a point writes back, and the array after the run -/

/-- The region's output array as ONE function of the arrays the region finds: the node update of all 100000 rows. -/
def out (c : Dev nD) : S100000x128.Idx → EReal :=
  Cert.Gin.mlp (A := 100000) (V m c main_arg0) (aggV m c) (V m c main_arg3) (V m c main_arg4) (V m c main_arg5)
    (V m c main_arg6) (V m c main_arg7) (V m c main_arg8)

/-- What point t writes back is block t of that function: rows 2000 t … 2000 t + 1999 of the node update depend only on
    the same rows of the node features and the aggregated features, which are the two blocks the point loads. -/
theorem flushed_eq (c : Dev nD) (t : Fin cfg0.N) :
    (dats m 0 c).flushed 8 t = ((cfg0.win 8).blk t).view.read (Elt Ideal) (out m c) := by
  show (cfg0.win 8).cut (grid0.coords t) ((dats m 0 c).after 8 t) = _
  rw [after0_8]
  unfold out0_8
  rw [View.canon_unit_zero hz2]
  simp only [View.ld_unit_zero (S := S2000x128) hz2, View.ld_unit_zero (S := S128x256) hz2, View.ld_unit_zero (S := S256) hz1,
    View.ld_unit_zero (S := S256x256) hz2, View.ld_unit_zero (S := S256x128) hz2, View.ld_unit_zero (S := S128) hz1]
  rw [pay_eq]
  funext y
  obtain ⟨r, j, rfl⟩ : ∃ (r : Fin 2000) (j : Fin 128), y = ix2 r j := ⟨y 0, y 1, eq_ix2 y⟩
  show Cert.Gin.mlp (iblk m c 0 t) (iblk m c 1 t) (iblk m c 2 t) (iblk m c 3 t) (iblk m c 4 t) (iblk m c 5 t) (iblk m c 6 t)
      (iblk m c 7 t) (ix2 r j) = out m c (((cfg0.win 8).blk t).view.emb (ix2 r j))
  rw [emb8 t r j]
  unfold out
  exact Cert.Gin.mlp_congr (iblk m c 0 t) (iblk m c 1 t) (V m c main_arg0) (aggV m c)
    (iblk m c 2 t) (V m c main_arg3) (iblk m c 3 t) (V m c main_arg4) (iblk m c 4 t) (V m c main_arg5)
    (iblk m c 5 t) (V m c main_arg6) (iblk m c 6 t) (V m c main_arg7) (iblk m c 7 t) (V m c main_arg8)
    r (row t r) j (read0 m c t r) (read1 m c t r)
    (whole2 m c t) (whole3 m c t) (whole4 m c t) (whole5 m c t) (whole6 m c t) (whole7 m c t)

/-- An index of the output array lies in point t's block iff each coordinate lies in the block's range on its axis. -/
theorem mem_blk8 (t : Fin cfg0.N) (i : S100000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v14).slice (win0_8.rect t)).set ↔ _
  rw [View.set_slice_whole, Rect.mem_set_unit]
  exact Iff.rfl

/-- The 50 blocks of 2000 rows tile the 100000 rows: row p lies in block p / 2000. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 50) (N_0 : cfg0.N = 50).symm⟩, rfl⟩
  obtain ⟨-, -, -, -, e0, e1⟩ := idx_rows t
  refine ⟨t, flush0_8 t, ?_⟩
  rw [mem_blk8]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- The output array after the run is the node update of the whole node array. -/
theorem final (c : Dev nD) : (dats m 0 c).arrAt 8 cfg0.N = out m c :=
  (dats m 0 c).arrAt_eq_of_cover 8 (out m c) (fun t _ => flushed_eq m c t) (cover)

end Cert.KernelIdeal.RegionValue

end
-- ==== Proof.KernelRun.lean ====
/-
  The idealized kernel's whole program: the host operations before the region (which build the aggregated neighbour
  features the region's second window stages), the region, and the host operations after it (which pool the node
  update's rows by graph).

  * Before the region: a node's aggregated features are the sum, over the edges that end at it, of the features of the
    edge's source node — a gather of the source rows followed by a scatter-add at the destination rows into zeros. The
    two index vectors are the two rows of the edge list; a negative source index is first wrapped by the node count.
    This is carried as ONE function `agg` of the node features and the edge list; nothing about it is needed beyond
    its being the same function on both sides of the claim.
  * After the region: row g of the result is the sum of the node update's rows over the nodes of graph g — a scatter-add
    by graph id into zeros, carried as ONE function `pool` of the graph ids and the node update.

  So the program's result is `pool ids (mlp x (agg x edges) W1 b1 W2 b2 Wo bo)`.
-/
import proofs.«160045_j11304353923870_1_alg».proof.Proof.RegionValue

set_option maxRecDepth 16384

noncomputable section

open Idealize.ShloMosaic Idealize.ShloMosaic.TcCoe Idealize.ShloMosaic.ValueIdx Idealize.SL.Sem
open Idealize.ShloMosaic.Pipeline (Dat Cfg Window)

namespace Cert.KernelIdeal.HostValue

open Cert.KernelIdeal Cert.KernelIdeal.Gen Cert.KernelIdeal.RegionValue

/-- Neighbour aggregation: gather the (wrapped) source rows of `x`, scatter-add them at the destination rows into zeros. -/
def agg (x : FVec Ideal S100000x128 .f32) (e : (⟨S2x1600000, .i32⟩ : BufTy).Contents (Elt Ideal)) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast _ (extractStridedSlice S1x1600000 ![1, 0] e slices_S2x1600000_S1x1600000_1_0) shapeCasts_S1x1600000_S1600000))
    (Host.gather gather_S100000x128_S1600000x1_S1600000x128_1_0_n_n_0_1_1128 x
      (broadcastInDim S1600000x1 ![0] bcast_S1600000_S1600000x1_0
        (select
          (cmpi .slt (shapeCast _ (extractStridedSlice S1x1600000 ![0, 0] e slices_S2x1600000_S1x1600000_0_0) shapeCasts_S1x1600000_S1600000)
            (broadcastInDim S1600000 ![] bcast_S_S1600000 (constantI S_ 32 0#32)))
          (addi (shapeCast _ (extractStridedSlice S1x1600000 ![0, 0] e slices_S2x1600000_S1x1600000_0_0) shapeCasts_S1x1600000_S1600000)
            (broadcastInDim S1600000 ![] bcast_S_S1600000 (constantI S_ 32 100000#32)))
          (shapeCast _ (extractStridedSlice S1x1600000 ![0, 0] e slices_S2x1600000_S1x1600000_0_0) shapeCasts_S1x1600000_S1600000))))

/-- Graph pooling: scatter-add the rows of `o` at their graph ids into zeros. -/
def pool (ids : (⟨S100000, .i32⟩ : BufTy).Contents (Elt Ideal)) (o : FVec Ideal S100000x128 .f32) :
    FVec Ideal S512x128 .f32 :=
  Host.scatterAdd (F := Ideal) scatter_S512x128_S100000x1_S100000x128_1_0_0_1
    (broadcastInDim S512x128 ![] bcast_S_S512x128 (constant (F := Ideal) S_ .f32 0x00000000#32))
    (broadcastInDim S100000x1 ![0] bcast_S100000_S100000x1_0 ids) o

variable (m : (ℓ : Loc nD τ sig) → Buf (Elt Ideal) ℓ) (ρ : Dev nD → PrngReg)

/-- The array the region's second window stages is the aggregation of the launch contents. -/
theorem aggV_eq (c : Dev nD) :
    aggV m c = agg (m ((c : Thread nD τ).loc main_arg0)) (m ((c : Thread nD τ).loc main_arg1)) := by
  show StableHlo.after hostOps0 (fun b => m (c, b)) (Proc.devRef .tc main_v13) = _
  after_results
  rfl

/-- The region's output array, in terms of the launch contents. -/
theorem out_eq (c : Dev nD) :
    out m c = Cert.Gin.mlp (A := 100000) (m ((c : Thread nD τ).loc main_arg0))
      (agg (m ((c : Thread nD τ).loc main_arg0)) (m ((c : Thread nD τ).loc main_arg1)))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  unfold out
  rw [aggV_eq m c, V_main_arg0 m c, V_main_arg3 m c, V_main_arg4 m c, V_main_arg5 m c, V_main_arg6 m c, V_main_arg7 m c,
    V_main_arg8 m c]

/-- The program's result as a function of the launch contents. -/
def result (c : Dev nD) : FVec Ideal S512x128 .f32 :=
  pool (m ((c : Thread nD τ).loc main_arg2))
    (Cert.Gin.mlp (A := 100000) (m ((c : Thread nD τ).loc main_arg0))
      (agg (m ((c : Thread nD τ).loc main_arg0)) (m ((c : Thread nD τ).loc main_arg1)))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)))

/-- What the host operations after the region leave in the result buffer: the pooling of the region's output array. -/
theorem tail_eq (c : Dev nD) :
    Pipeline.afterTail₀ cfgs (dats m) 0 (V0 m) [hostOps1] c main_v17 = result m c := by
  unfold Pipeline.afterTail₀
  show StableHlo.after hostOps1 _ (Proc.devRef .tc main_v17) = _
  after_results
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have h8 : Pipeline.withArrays (cfgs 0).spec c (V0 m c) (fun w => (dats m 0 c).arrAt w (cfgs 0).N) (Proc.devRef .tc main_v14)
      = Cert.Gin.mlp (A := 100000) (m ((c : Thread nD τ).loc main_arg0))
          (agg (m ((c : Thread nD τ).loc main_arg0)) (m ((c : Thread nD τ).loc main_arg1)))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) :=
    ((Pipeline.withArrays_arr spec0 launch0.win.arr_inj c _ _ 8).trans (final m c)).trans (out_eq m c)
  rw [h2, h8]
  rfl

/-- THE KERNEL'S RUN: every weakly fair execution terminates with the result buffer at `result` of the launch contents
    and the nine argument arrays as launched (a staged input array by the pipeline's own account of it, an array no
    window stages because no host operation writes it). -/
theorem run : θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v17 (Pipeline.mem_restRefs_of main_v17 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c)))⟩)
    (run_main m ρ)

end Cert.KernelIdeal.HostValue

end
-- ==== Proof.RefValue.lean ====
/-
  The idealized reference's node update, read off its stages: after the aggregation (a stage this module never opens),
  the reference multiplies the node features by one, adds the aggregated features, and applies three affine layers on
  the whole 100000-row array, a rectifier after the first two. Stage by stage that is `Cert.Gin.mlp` at 100000 rows.
-/
import proofs.«160045_j11304353923870_1_alg».proof.Proof.Gen.ReferenceIdeal.Read
import proofs.«160045_j11304353923870_1_alg».proof.Proof.Dense

noncomputable section

open Idealize.ShloMosaic Idealize.ShloMosaic.TcCoe Idealize.ShloMosaic.ValueIdx Idealize.SL.Sem

namespace Cert.ReferenceIdeal.RefValue

open Cert.ReferenceIdeal Cert.ReferenceIdeal.Read

/-- The reference's last stage before pooling is the node update of the node features and the aggregation stage. -/
theorem node_update_eq (x0 : (⟨S100000x128, .f32⟩ : BufTy).Contents (Elt Ideal)) (x1 : (⟨S2x1600000, .i32⟩ : BufTy).Contents (Elt Ideal))
    (x3 : (⟨S128x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x128, .f32⟩ : BufTy).Contents (Elt Ideal)) (x8 : (⟨S128, .f32⟩ : BufTy).Contents (Elt Ideal)) :
    val_main_v30 (F := Ideal) x0 x1 x3 x4 x5 x6 x7 x8
      = Cert.Gin.mlp (A := 100000) x0 (val_main_v13 (F := Ideal) x0 x1) x3 x4 x5 x6 x7 x8 := by
  unfold val_main_v30 val_main_v29 val_main_v28 val_main_v27 val_main_v26 val_main_call1_v0 val_main_call1_cst val_main_v25
    val_main_v24 val_main_v23 val_main_v22 val_main_v21 val_main_call0_v0 val_main_call0_cst val_main_v20 val_main_v19
    val_main_v18 val_main_v17 val_main_v16 val_main_v15 val_main_v14 val_main_cst_1 Cert.Gin.mlp
  generalize val_main_v13 (F := Ideal) x0 x1 = a
  rw [Cert.Gin.host_combine, Cert.Gin.host_dense dot_S100000x128_S128x256_S100000x256_1_0_0_1_n_n rfl, Cert.Gin.host_relu,
    Cert.Gin.host_dense dot_S100000x256_S256x256_S100000x256_1_0_0_1_n_n rfl, Cert.Gin.host_relu,
    Cert.Gin.host_dense dot_S100000x256_S256x128_S100000x128_1_0_0_1_n_n rfl]

end Cert.ReferenceIdeal.RefValue

end
-- ==== Proof.lean ====
/-
  The certificate that a Pallas kernel for one graph-isomorphism layer with graph pooling computes, on the extended
  reals, what its jnp reference computes.

  Both programs compute, from node features x : [100000, 128], an edge list, graph ids, and three weight matrices with
  their biases,

      result = pool ids (mlp x (agg x edges) W1 b1 W2 b2 Wo bo),

  where agg sums, for every node, the features of the sources of the edges ending at it; mlp is the row-wise three-layer
  perceptron of x + agg with rectifiers after the first two layers (Proof/Spec.lean); and pool sums the rows of a graph's
  nodes. Both programs spell agg and pool with the same host gather and scatter-add operations, which are carried here
  as opaque functions and never opened. The programs differ only in mlp:

  * the kernel computes it 2000 rows at a time on a grid of 50 points, rounding matrix-product operands to bf16 (the
    identity on the extended reals) and multiplying on the matrix unit into a zero accumulator — Proof/RegionValue.lean
    shows the output array after the 50 points is mlp of the whole arrays, because a row of mlp depends only on the same
    row of its inputs and the 50 blocks tile the rows; Proof/KernelRun.lean puts the host operations around it;
  * the reference computes it on all 100000 rows at once, after multiplying x by 1.0, and 1 · x = x for every extended
    real — Proof/RefValue.lean.

  No law used needs finiteness (a sum's terms are never regrouped across a product), so the precondition is not opened.
  The ideal pass rewrote no operation of the kernel, so `preserves` is trivial. The word-level kernel's frame and the
  idealized kernel's are the generated class-A frames; the reference's frame is its generated run with the result dropped.
-/
import proofs.«160045_j11304353923870_1_alg».proof.Defs
import proofs.«160045_j11304353923870_1_alg».proof.Proof.Gen.Kernel
import proofs.«160045_j11304353923870_1_alg».proof.Proof.Gen.Kernel.Skeleton
import proofs.«160045_j11304353923870_1_alg».proof.Proof.Gen.Kernel.Launch
import proofs.«160045_j11304353923870_1_alg».proof.Proof.Gen.Kernel.Points
import proofs.«160045_j11304353923870_1_alg».proof.Proof.Gen.Kernel.Frame
import proofs.«160045_j11304353923870_1_alg».proof.Proof.Gen.KernelIdeal
import proofs.«160045_j11304353923870_1_alg».proof.Proof.Gen.KernelIdeal.Skeleton
import proofs.«160045_j11304353923870_1_alg».proof.Proof.Gen.KernelIdeal.Launch
import proofs.«160045_j11304353923870_1_alg».proof.Proof.Gen.KernelIdeal.Points
import proofs.«160045_j11304353923870_1_alg».proof.Proof.Gen.KernelIdeal.Frame
import proofs.«160045_j11304353923870_1_alg».proof.Proof.Gen.ReferenceIdeal
import proofs.«160045_j11304353923870_1_alg».proof.Proof.Gen.ReferenceIdeal.Run
import proofs.«160045_j11304353923870_1_alg».proof.Proof.Gen.ReferenceIdeal.Read
import proofs.«160045_j11304353923870_1_alg».proof.Proof.Gen.Pre_finite_inputs
import proofs.«160045_j11304353923870_1_alg».proof.Proof.KernelRun
import proofs.«160045_j11304353923870_1_alg».proof.Proof.RefValue
import Idealize.ShloMosaic.Adequacy
import Idealize.ShloMosaic.Init

noncomputable section

namespace Cert.Proof

open Idealize.ShloMosaic Idealize.SL.Sem

/-- The reference's result stage is the pooling of the node update of the aggregation — the kernel program's three
    functions: the aggregation and the pooling are the same host operations in both programs, and the node update in
    between is `Cert.Gin.mlp` (Proof/RefValue.lean). -/
theorem ref_result_eq (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S100000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal))
    (x7 : (⟨Cert.ReferenceIdeal.S256x128, .f32⟩ : BufTy).Contents (Elt Ideal))
    (x8 : (⟨Cert.ReferenceIdeal.S128, .f32⟩ : BufTy).Contents (Elt Ideal)) :
    Cert.ReferenceIdeal.Read.val_main_v33 (F := Ideal) x0 x1 x2 x3 x4 x5 x6 x7 x8
      = Cert.KernelIdeal.HostValue.pool x2
          (Cert.Gin.mlp (A := 100000) x0 (Cert.KernelIdeal.HostValue.agg x0 x1) x3 x4 x5 x6 x7 x8) := by
  unfold Cert.ReferenceIdeal.Read.val_main_v33
  rw [Cert.ReferenceIdeal.RefValue.node_update_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the ledger is empty. -/
theorem preserves : Cert.preserves_Kernel_KernelIdeal := trivial

/-- From memories agreeing on the arguments both programs end with the result buffer at
    pool ids (mlp x (agg x edges) W1 b1 W2 b2 Wo bo) of the kernel's launch contents. -/
theorem algebraic : Cert.algebraic_KernelIdeal_ReferenceIdeal := by
  intro m ρ m' ρ' _ hagree
  refine ⟨fun c => Cert.KernelIdeal.HostValue.result m c, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  refine ((Cert.ReferenceIdeal.Read.val_main_v33_eq _ _ _ _ _ _ _ _ _).trans (ref_result_eq _ _ _ _ _ _ _ _ _)).trans ?_
  unfold Cert.KernelIdeal.HostValue.result
  rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
